-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S65536x256 : Shape := ⟨2, ![65536, 256]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S65536x256 : S_.BroadcastsInDim S65536x256 (![] : Fin 0 → Fin S65536x256.rank)
  reducesTo_S65536x256_S_d0_1 : S65536x256.ReducesTo [0, 1] S_

variable [Facts]

def fn_part2 {F : FTy → Type} [FloatOps F] (main_arg7 : FVec F S65536x256 .f32) (main_v33 : IVec S_ 1) : IVec S_ 1 :=
  let main_v34 : FVec F S65536x256 .f32 := Host.absf main_arg7
  let main_cst_12 : FVec F S_ .f32 := constant S_ .f32 0x7F800000#32
  let main_v35 : FVec F S65536x256 .f32 := broadcastInDim S65536x256 ![] bcast_S_S65536x256 main_cst_12
  let main_v36 : IVec S65536x256 1 := cmpf .olt main_v34 main_v35
  let main_c_13 : IVec S_ 1 := constantI S_ 1 1#1
  let main_v37 : IVec S_ 1 := (fun x v => Host.reduce IntOp.andi x v reducesTo_S65536x256_S_d0_1 h_S_) main_v36 main_c_13
  let main_v38 : IVec S_ 1 := andi main_v33 main_v37
  main_v38

def fn_part1 {F : FTy → Type} [FloatOps F] (main_arg4 : FVec F S32 .f32) (main_arg5 : FVec F S32x256 .f32) (main_arg6 : FVec F S256 .f32) (main_arg7 : FVec F S65536x256 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x256 .f32 := Host.absf main_arg5
  let main_cst_8 : FVec F S_ .f32 := constant S_ .f32 0x7F800000#32
  let main_v25 : FVec F S32x256 .f32 := broadcastInDim S32x256 ![] bcast_S_S32x256 main_cst_8
  let main_v26 : IVec S32x256 1 := cmpf .olt main_v24 main_v25
  let main_c_9 : IVec S_ 1 := constantI S_ 1 1#1
  let main_v27 : IVec S_ 1 := (fun x v => Host.reduce IntOp.andi x v reducesTo_S32x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S65536x512 .f32) (main_arg1 : FVec F S512x64 .f32) (main_arg2 : FVec F S64 .f32) (main_arg3 : FVec F S64x32 .f32) (main_arg4 : FVec F S32 .f32) (main_arg5 : FVec F S32x256 .f32) (main_arg6 : FVec F S256 .f32) (main_arg7 : FVec F S65536x256 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_v13 main_v16
-- ==== Kernel.lean ====
abbrev S65536x512 : Shape := ⟨2, ![65536, 512]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S65536x256 : Shape := ⟨2, ![65536, 256]⟩
abbrev S1x64 : Shape := ⟨2, ![1, 64]⟩
abbrev S1x32 : Shape := ⟨2, ![1, 32]⟩
abbrev S1x256 : Shape := ⟨2, ![1, 256]⟩
abbrev S65536 : Shape := ⟨1, ![65536]⟩
abbrev S2048x512 : Shape := ⟨2, ![2048, 512]⟩
abbrev S2048x256 : Shape := ⟨2, ![2048, 256]⟩
abbrev S2048 : Shape := ⟨1, ![2048]⟩
abbrev S2048x64 : Shape := ⟨2, ![2048, 64]⟩
abbrev S2048x32 : Shape := ⟨2, ![2048, 32]⟩

abbrev nBuf : Space → Nat
  | .hbm => 13
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x256, .f32⟩
  | .hbm, ⟨6, _⟩ => ⟨S256, .f32⟩
  | .hbm, ⟨7, _⟩ => ⟨S65536x256, .f32⟩
  | .hbm, ⟨8, _⟩ => ⟨S1x64, .f32⟩
  | .hbm, ⟨9, _⟩ => ⟨S1x32, .f32⟩
  | .hbm, ⟨10, _⟩ => ⟨S1x256, .f32⟩
  | .hbm, ⟨11, _⟩ => ⟨S65536x256, .f32⟩
  | .hbm, ⟨12, _⟩ => ⟨S65536, .f32⟩
  | .local _ .vmem, ⟨0, _⟩ => ⟨S2048x512, .f32⟩
  | .local _ .vmem, ⟨1, _⟩ => ⟨S2048x512, .f32⟩
  | .local _ .vmem, ⟨2, _⟩ => ⟨S512x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048, .f32⟩
  | .local _ .vmem, ⟨13, _⟩ => ⟨S2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  shapeCasts_S32_S1x32 : S32.ShapeCasts S1x32
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  inb_S2048_S2048_0 : ∀ a, (![0] : Fin 1 → Nat) a + S2048.size a ≤ S2048.size a
  h_S2048 : 0 < S2048.numel
  dot_S2048x512_S512x64_S2048x64_1_0_0_1_n_n_wf : DotDims.WF S2048x512 S512x64 S2048x64 [1] [0] [0] [1] [] []
  dot_S2048x64_S64x32_S2048x32_1_0_0_1_n_n_wf : DotDims.WF S2048x64 S64x32 S2048x32 [1] [0] [0] [1] [] []
  dot_S2048x32_S32x256_S2048x256_1_0_0_1_n_n_wf : DotDims.WF S2048x32 S32x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .f32 = 32 ∨ (Rect.block (s := S32x256) S32x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S65536x256.size a
  hwx0_8 : ∀ i : grid0.Coords, EltTy.bits .f32 = 32 ∨ (Rect.block (s := S65536x256) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S65536.size a
  hwx0_9 : ∀ i : grid0.Coords, EltTy.bits .f32 = 32 ∨ (Rect.block (s := S65536) S2048.size (cc0_transform_9 i) (hinb0_9 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S2048x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x256 : Shape := ⟨2, ![32, 256]⟩
abbrev S256 : Shape := ⟨1, ![256]⟩
abbrev S65536x256 : Shape := ⟨2, ![65536, 256]⟩
abbrev S65536x64 : Shape := ⟨2, ![65536, 64]⟩
abbrev S1x64 : Shape := ⟨2, ![1, 64]⟩
abbrev S_ : Shape := ⟨0, ![]⟩
abbrev S65536x32 : Shape := ⟨2, ![65536, 32]⟩
abbrev S1x32 : Shape := ⟨2, ![1, 32]⟩
abbrev S1x256 : Shape := ⟨2, ![1, 256]⟩
abbrev S65536 : Shape := ⟨1, ![65536]⟩

abbrev nBuf : Space → Nat
  | .hbm => 51
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x256, .f32⟩
  | .hbm, ⟨6, _⟩ => ⟨S256, .f32⟩
  | .hbm, ⟨7, _⟩ => ⟨S65536x256, .f32⟩
  | .hbm, ⟨8, _⟩ => ⟨S65536x64, .f32⟩
  | .hbm, ⟨9, _⟩ => ⟨S1x64, .f32⟩
  | .hbm, ⟨10, _⟩ => ⟨S65536x64, .f32⟩
  | .hbm, ⟨11, _⟩ => ⟨S65536x64, .f32⟩
  | .hbm, ⟨12, _⟩ => ⟨S_, .f32⟩
  | .hbm, ⟨13, _⟩ => ⟨S65536x64, .f32⟩
  | .hbm, ⟨14, _⟩ => ⟨S65536x64, .i1⟩
  | .hbm, ⟨15, _⟩ => ⟨S_, .f32⟩
  | .hbm, ⟨16, _⟩ => ⟨S65536x64, .f32⟩
  | .hbm, ⟨17, _⟩ => ⟨S65536x64, .f32⟩
  | .hbm, ⟨18, _⟩ => ⟨S65536x64, .f32⟩
  | .hbm, ⟨19, _⟩ => ⟨S65536x32, .f32⟩
  | .hbm, ⟨20, _⟩ => ⟨S1x32, .f32⟩
  | .hbm, ⟨21, _⟩ => ⟨S65536x32, .f32⟩
  | .hbm, ⟨22, _⟩ => ⟨S65536x32, .f32⟩
  | .hbm, ⟨23, _⟩ => ⟨S_, .f32⟩
  | .hbm, ⟨24, _⟩ => ⟨S65536x32, .f32⟩
  | .hbm, ⟨25, _⟩ => ⟨S65536x32, .i1⟩
  | .hbm, ⟨26, _⟩ => ⟨S_, .f32⟩
  | .hbm, ⟨27, _⟩ => ⟨S65536x32, .f32⟩
  | .hbm, ⟨28, _⟩ => ⟨S65536x32, .f32⟩
  | .hbm, ⟨29, _⟩ => ⟨S65536x32, .f32⟩
  | .hbm, ⟨30, _⟩ => ⟨S65536x256, .f32⟩
  | .hbm, ⟨31, _⟩ => ⟨S1x256, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  h_S_ : 0 < S_.numel
  dot_S65536x512_S512x64_S65536x64_1_0_0_1_n_n_wf : DotDims.WF S65536x512 S512x64 S65536x64 [1] [0] [0] [1] [] []
  dot_S65536x64_S64x32_S65536x32_1_0_0_1_n_n_wf : DotDims.WF S65536x64 S64x32 S65536x32 [1] [0] [0] [1] [] []
  dot_S65536x32_S32x256_S65536x256_1_0_0_1_n_n_wf : DotDims.WF S65536x32 S32x256 S65536x256 [1] [0] [0] [1] [] []

variable [Facts₀]

def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf

class Facts : Prop extends Facts₀ where

variable [Facts]
-- ==== Proof.Policy.lean ====
/-
  The function both programs compute, written once over plain coordinates, and the two facts about the extended
  reals that the comparison needs.

  A row x of 512 numbers goes through three dense layers: u = x·W1 + b1 (64 numbers), each passed through the
  leaky rectifier (u where u ≥ 0, slope·u elsewhere); v = that·W2 + b2 (32 numbers), rectified the same way; and the
  mean μ = that·W3 + b3 (256 numbers). The action is μ + one·n for the row's noise n, and the summed log-density is
  Σ_q ((−½·n_q)·n_q − ½log 2π). The constants stay the words both programs print; only the zero word and the word of
  one are ever read as numbers.

  The facts: every layer maps real numbers to real numbers (a finite sum of products of reals is real, and the rectifier
  returns one of two reals), and for a real a the difference (a + b) − a is b on every extended real b — this is where a
  finite mean is needed, since (⊤ + b) − ⊤ is not b.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Policy

open Idealize.ShloMosaic

/-! ## The printed words -/

/-- The word of zero, against which the rectifier compares. -/
abbrev zeroW : EReal := Ideal.ofBits .f32 0x00000000#32
/-- The rectifier's slope on the negative side (the f32 nearest to 0.01). -/
abbrev slopeW : EReal := Ideal.ofBits .f32 0x3C23D70A#32
/-- The standard deviation, one. -/
abbrev oneW : EReal := Ideal.ofBits .f32 0x3F800000#32
/-- Minus one half. -/
abbrev mhalfW : EReal := Ideal.ofBits .f32 0xBF000000#32
/-- The f32 nearest to half the logarithm of 2π. -/
abbrev hlogW : EReal := Ideal.ofBits .f32 0x3F6B3F8E#32

theorem zeroW_eq : zeroW = 0 := Ideal.ofBits_zero_f32

theorem oneW_eq : oneW = 1 := IdealRules.sign_bit.ideal_onePat .f32

/-! ## The layers -/

/-- The leaky rectifier: u where u ≥ 0, slope·u elsewhere. -/
def lrelu (u : EReal) : EReal := Scalar.select (Ideal.cmp .oge u zeroW) u (slopeW * u)

/-- First layer before the rectifier, at unit j. -/
def pre1 (x : Fin 512 → EReal) (W1 : Fin 512 → Fin 64 → EReal) (b1 : Fin 64 → EReal) (j : Fin 64) : EReal :=
  (∑ k : Fin 512, x k * W1 k j) + b1 j

/-- Second layer before the rectifier, at unit j. -/
def pre2 (x : Fin 512 → EReal) (W1 : Fin 512 → Fin 64 → EReal) (b1 : Fin 64 → EReal)
    (W2 : Fin 64 → Fin 32 → EReal) (b2 : Fin 32 → EReal) (j : Fin 32) : EReal :=
  (∑ k : Fin 64, lrelu (pre1 x W1 b1 k) * W2 k j) + b2 j

/-- The mean of the action's distribution, at channel q. -/
def mean (x : Fin 512 → EReal) (W1 : Fin 512 → Fin 64 → EReal) (b1 : Fin 64 → EReal)
    (W2 : Fin 64 → Fin 32 → EReal) (b2 : Fin 32 → EReal) (W3 : Fin 32 → Fin 256 → EReal) (b3 : Fin 256 → EReal)
    (q : Fin 256) : EReal :=
  (∑ k : Fin 32, lrelu (pre2 x W1 b1 W2 b2 k) * W3 k q) + b3 q

/-- One channel's term of the log-density: (−½·n)·n − ½log 2π. -/
def term (n : EReal) : EReal := mhalfW * n * n - hlogW

/-! ## The two results as whole arrays -/

open Idealize.ShloMosaic.ValueIdx in
/-- The sampled actions: at (r, q) the mean of row r of the states at channel q, plus one times the noise there. -/
def actionsOf (st : (⟨2, ![65536, 512]⟩ : Shape).Idx → EReal) (w1 : (⟨2, ![512, 64]⟩ : Shape).Idx → EReal)
    (b1 : (⟨1, ![64]⟩ : Shape).Idx → EReal) (w2 : (⟨2, ![64, 32]⟩ : Shape).Idx → EReal) (b2 : (⟨1, ![32]⟩ : Shape).Idx → EReal)
    (w3 : (⟨2, ![32, 256]⟩ : Shape).Idx → EReal) (b3 : (⟨1, ![256]⟩ : Shape).Idx → EReal)
    (nz : (⟨2, ![65536, 256]⟩ : Shape).Idx → EReal) : (⟨2, ![65536, 256]⟩ : Shape).Idx → EReal :=
  fun i => mean (fun k => st (ix2 (⟨(i 0).val, idx2_lt0 i⟩ : Fin 65536) k)) (fun k j => w1 (ix2 k j)) (fun j => b1 (ix1 j))
      (fun k j => w2 (ix2 k j)) (fun j => b2 (ix1 j)) (fun k j => w3 (ix2 k j)) (fun j => b3 (ix1 j))
      (⟨(i 1).val, idx2_lt1 i⟩ : Fin 256)
    + oneW * nz i

open Idealize.ShloMosaic.ValueIdx in
/-- The summed log-density of row r: the sum over the 256 channels of the noise's term. -/
def logpOf (nz : (⟨2, ![65536, 256]⟩ : Shape).Idx → EReal) : (⟨1, ![65536]⟩ : Shape).Idx → EReal :=
  fun i => ∑ k : Fin 256, term (nz (ix2 (⟨(i 0).val, (i 0).isLt⟩ : Fin 65536) k))

/-! ## Real numbers stay real -/

/-- An extended real that is a real number. -/
def IsReal (x : EReal) : Prop := ∃ r : ℝ, x = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.select (c : BitVec 1) {a b : EReal} (ha : IsReal a) (hb : IsReal b) : IsReal (Scalar.select c a b) := by
  unfold Scalar.select; split <;> assumption

/-- A pattern whose exponent field is not all ones denotes a real number. -/
theorem isReal_ieee {e m w : Nat} (b : BitVec w) (h : (b.extractLsb' m e).toNat ≠ 2 ^ e - 1) : IsReal (Ideal.ieee e m b) := by
  unfold Ideal.ieee
  simp only []
  rw [if_neg h]
  split <;> exact ⟨_, rfl⟩

theorem slopeW_isReal : IsReal slopeW :=
  show IsReal (Ideal.ieee 8 23 (0x3C23D70A#32 : BitVec 32)) from isReal_ieee (0x3C23D70A#32 : BitVec 32) (by decide)

theorem lrelu_isReal {u : EReal} (hu : IsReal u) : IsReal (lrelu u) :=
  IsReal.select _ hu (slopeW_isReal.mul hu)

theorem pre1_isReal {x : Fin 512 → EReal} {W1 : Fin 512 → Fin 64 → EReal} {b1 : Fin 64 → EReal}
    (hx : ∀ k, IsReal (x k)) (hW1 : ∀ k j, IsReal (W1 k j)) (hb1 : ∀ j, IsReal (b1 j)) (j : Fin 64) :
    IsReal (pre1 x W1 b1 j) :=
  (IsReal.sum _ _ fun k => (hx k).mul (hW1 k j)).add (hb1 j)

theorem pre2_isReal {x : Fin 512 → EReal} {W1 : Fin 512 → Fin 64 → EReal} {b1 : Fin 64 → EReal}
    {W2 : Fin 64 → Fin 32 → EReal} {b2 : Fin 32 → EReal}
    (hx : ∀ k, IsReal (x k)) (hW1 : ∀ k j, IsReal (W1 k j)) (hb1 : ∀ j, IsReal (b1 j))
    (hW2 : ∀ k j, IsReal (W2 k j)) (hb2 : ∀ j, IsReal (b2 j)) (j : Fin 32) :
    IsReal (pre2 x W1 b1 W2 b2 j) :=
  (IsReal.sum _ _ fun k => (lrelu_isReal (pre1_isReal hx hW1 hb1 k)).mul (hW2 k j)).add (hb2 j)

/-- From real inputs the mean is real. -/
theorem mean_isReal {x : Fin 512 → EReal} {W1 : Fin 512 → Fin 64 → EReal} {b1 : Fin 64 → EReal}
    {W2 : Fin 64 → Fin 32 → EReal} {b2 : Fin 32 → EReal} {W3 : Fin 32 → Fin 256 → EReal} {b3 : Fin 256 → EReal}
    (hx : ∀ k, IsReal (x k)) (hW1 : ∀ k j, IsReal (W1 k j)) (hb1 : ∀ j, IsReal (b1 j))
    (hW2 : ∀ k j, IsReal (W2 k j)) (hb2 : ∀ j, IsReal (b2 j))
    (hW3 : ∀ k j, IsReal (W3 k j)) (hb3 : ∀ j, IsReal (b3 j)) (q : Fin 256) :
    IsReal (mean x W1 b1 W2 b2 W3 b3 q) :=
  (IsReal.sum _ _ fun k => (lrelu_isReal (pre2_isReal hx hW1 hb1 hW2 hb2 k)).mul (hW3 k q)).add (hb3 q)

/-! ## The one law: a real summand cancels -/

/-- For a real a, (a + b) − a = b on every extended real b. -/
theorem add_sub_cancel_real {a : EReal} (ha : IsReal a) (b : EReal) : a + b - a = b := by
  obtain ⟨r, rfl⟩ := ha
  induction b using EReal.rec with
  | bot => simp
  | top => simp
  | coe s => rw [← EReal.coe_add, ← EReal.coe_sub]; exact congrArg _ (by ring)

/-- A quotient by the word of one is the dividend. -/
theorem div_oneW (z : EReal) : Ideal.div z oneW = z := by
  rw [oneW_eq, ← EReal.coe_one, Ideal.div_coe one_ne_zero]
  simp

/-- What the reference makes of the noise — the sampled action minus its mean, over the deviation one — is the noise,
    when the mean is real. -/
theorem recovered_noise {a : EReal} (ha : IsReal a) (n : EReal) : Ideal.div (a + oneW * n - a) oneW = n := by
  rw [div_oneW, add_sub_cancel_real ha, oneW_eq, one_mul]

end Cert.Policy

end
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.KernelPayload.lean ====
/-
  What the kernel's body computes from its blocks, entry by entry.

  At a grid point the body holds 2048 rows of the states, the three weight matrices whole, the three biases as
  one-row blocks, and 2048 rows of the noise. Its stored values are: for the actions, at (p, q), the mean of row p at
  channel q plus one times the noise at (p, q); for the log-density, at p, the sum over the 256 channels of the
  noise's term in row p. A change of float format is the identity on extended reals, the matrix unit from a zero
  accumulator is the plain sum of products, and a one-row block broadcast down the rows reads its entry in that row —
  so each layer's entry is the row's dense layer, and the three layers compose to the mean.
-/
import proofs.«130941_j48799418417266_2_alg».proof.Proof.Gen.KernelIdeal.Skeleton
import proofs.«130941_j48799418417266_2_alg».proof.Proof.Policy
import proofs.«130941_j48799418417266_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Policy

/-! ## The three products are plain ones -/

theorem dot1_plain : dot_S2048x512_S512x64_S2048x64_1_0_0_1_n_n = DotDims.plain 2048 512 64 := rfl
theorem dot2_plain : dot_S2048x64_S64x32_S2048x32_1_0_0_1_n_n = DotDims.plain 2048 64 32 := rfl
theorem dot3_plain : dot_S2048x32_S32x256_S2048x256_1_0_0_1_n_n = DotDims.plain 2048 32 256 := rfl

/-! ## The body's pieces, named -/

/-- The rectifier over a block: compare with the zero splat, keep the entry or take slope times it. -/
def rect (S : Shape) (v : FVec Ideal S .f32) : FVec Ideal S .f32 :=
  select (cmpf .oge v (broadcast S (Scalar.ofBits .f32 0x00000000#32))) v (mulf (broadcast S (Scalar.ofBits .f32 0x3C23D70A#32)) v)

theorem rect_apply (S : Shape) (v : FVec Ideal S .f32) (i : S.Idx) : rect S v i = lrelu (v i) := rfl

/-- First layer over a block of rows: rows times W1, plus the bias row repeated. -/
def lin1 (y0 : FVec Ideal S2048x512 .f32) (y1 : FVec Ideal S512x64 .f32) (y2 : FVec Ideal S1x64 .f32) : FVec Ideal S2048x64 .f32 :=
  addf (matmul dot_S2048x512_S512x64_S2048x64_1_0_0_1_n_n none (truncf .bf16 y0 bitsLt_bf16_f32) (truncf .bf16 y1 bitsLt_bf16_f32) (constant S2048x64 .f32 0x00000000#32))
    (broadcastTo S2048x64 (shapeCast S1x64 y2 shapeCasts_S1x64_S1x64) broadcasts_S1x64_S2048x64)

/-- Second layer. -/
def lin2 (a1 : FVec Ideal S2048x64 .f32) (y3 : FVec Ideal S64x32 .f32) (y4 : FVec Ideal S1x32 .f32) : FVec Ideal S2048x32 .f32 :=
  addf (matmul dot_S2048x64_S64x32_S2048x32_1_0_0_1_n_n none (truncf .bf16 a1 bitsLt_bf16_f32) (truncf .bf16 y3 bitsLt_bf16_f32) (constant S2048x32 .f32 0x00000000#32))
    (broadcastTo S2048x32 (shapeCast S1x32 y4 shapeCasts_S1x32_S1x32) broadcasts_S1x32_S2048x32)

/-- Third layer. -/
def lin3 (a2 : FVec Ideal S2048x32 .f32) (y5 : FVec Ideal S32x256 .f32) (y6 : FVec Ideal S1x256 .f32) : FVec Ideal S2048x256 .f32 :=
  addf (matmul dot_S2048x32_S32x256_S2048x256_1_0_0_1_n_n none (truncf .bf16 a2 bitsLt_bf16_f32) (truncf .bf16 y5 bitsLt_bf16_f32) (constant S2048x256 .f32 0x00000000#32))
    (broadcastTo S2048x256 (shapeCast S1x256 y6 shapeCasts_S1x256_S1x256) broadcasts_S1x256_S2048x256)

/-- The mean's payload is the three layers composed, the rectifier between them. -/
theorem mean_payload (y0 : Vec Ideal S2048x512 .f32) (y1 : Vec Ideal S512x64 .f32) (y2 : Vec Ideal S1x64 .f32)
    (y3 : Vec Ideal S64x32 .f32) (y4 : Vec Ideal S1x32 .f32) (y5 : Vec Ideal S32x256 .f32) (y6 : Vec Ideal S1x256 .f32) :
    k0_pay3 y0 y1 y2 y3 y4 y5 y6 = lin3 (rect S2048x32 (lin2 (rect S2048x64 (lin1 y0 y1 y2)) y3 y4)) y5 y6 := rfl

/-! ## Each layer at an entry -/

theorem lin1_apply (y0 : FVec Ideal S2048x512 .f32) (y1 : FVec Ideal S512x64 .f32) (y2 : FVec Ideal S1x64 .f32) (p : Fin 2048) (j : Fin 64) :
    lin1 y0 y1 y2 (ix2 p j) = (∑ k : Fin 512, y0 (ix2 p k) * y1 (ix2 k j)) + y2 (ix2 (0 : Fin 1) j) := by
  unfold lin1
  rw [addf_apply, shapeCast_self, broadcastTo_1b_ab_apply, dot1_plain]
  exact congrArg (· + y2 (ix2 (0 : Fin 1) j)) (Cert.LibPlainDot.plain_matmul 2048 512 64 _ _ p j)

theorem lin2_apply (a1 : FVec Ideal S2048x64 .f32) (y3 : FVec Ideal S64x32 .f32) (y4 : FVec Ideal S1x32 .f32) (p : Fin 2048) (j : Fin 32) :
    lin2 a1 y3 y4 (ix2 p j) = (∑ k : Fin 64, a1 (ix2 p k) * y3 (ix2 k j)) + y4 (ix2 (0 : Fin 1) j) := by
  unfold lin2
  rw [addf_apply, shapeCast_self, broadcastTo_1b_ab_apply, dot2_plain]
  exact congrArg (· + y4 (ix2 (0 : Fin 1) j)) (Cert.LibPlainDot.plain_matmul 2048 64 32 _ _ p j)

theorem lin3_apply (a2 : FVec Ideal S2048x32 .f32) (y5 : FVec Ideal S32x256 .f32) (y6 : FVec Ideal S1x256 .f32) (p : Fin 2048) (q : Fin 256) :
    lin3 a2 y5 y6 (ix2 p q) = (∑ k : Fin 32, a2 (ix2 p k) * y5 (ix2 k q)) + y6 (ix2 (0 : Fin 1) q) := by
  unfold lin3
  rw [addf_apply, shapeCast_self, broadcastTo_1b_ab_apply, dot3_plain]
  exact congrArg (· + y6 (ix2 (0 : Fin 1) q)) (Cert.LibPlainDot.plain_matmul 2048 32 256 _ _ p q)

/-! ## The stored values at an entry -/

/-- The mean's payload at (p, q) is the mean of row p of the state block, through the blocks' weights and bias rows. -/
theorem mean_block (y0 : Vec Ideal S2048x512 .f32) (y1 : Vec Ideal S512x64 .f32) (y2 : Vec Ideal S1x64 .f32)
    (y3 : Vec Ideal S64x32 .f32) (y4 : Vec Ideal S1x32 .f32) (y5 : Vec Ideal S32x256 .f32) (y6 : Vec Ideal S1x256 .f32)
    (p : Fin 2048) (q : Fin 256) :
    k0_pay3 y0 y1 y2 y3 y4 y5 y6 (ix2 p q)
      = mean (fun k => y0 (ix2 p k)) (fun k j => y1 (ix2 k j)) (fun j => y2 (ix2 (0 : Fin 1) j))
          (fun k j => y3 (ix2 k j)) (fun j => y4 (ix2 (0 : Fin 1) j)) (fun k j => y5 (ix2 k j)) (fun j => y6 (ix2 (0 : Fin 1) j)) q := by
  rw [mean_payload, lin3_apply]
  unfold mean
  refine congrArg (· + y6 (ix2 (0 : Fin 1) q)) (Finset.sum_congr rfl fun k _ => congrArg (· * y5 (ix2 k q)) ?_)
  rw [rect_apply, lin2_apply]
  unfold pre2
  refine congrArg lrelu (congrArg (· + y4 (ix2 (0 : Fin 1) k)) (Finset.sum_congr rfl fun k' _ => congrArg (· * y3 (ix2 k' k)) ?_))
  rw [rect_apply, lin1_apply]
  rfl

/-- The stored action at an entry: the mean's payload there plus one times the noise block there. -/
theorem action_payload (v34 : FVec Ideal S2048x256 .f32) (v35 : Vec Ideal S2048x256 .f32) (i : S2048x256.Idx) :
    k0_pay1 v34 v35 i = v34 i + oneW * v35 i := rfl

/-- The stored action at an entry of the block, from the blocks. -/
theorem action_block (y0 : Vec Ideal S2048x512 .f32) (y1 : Vec Ideal S512x64 .f32) (y2 : Vec Ideal S1x64 .f32)
    (y3 : Vec Ideal S64x32 .f32) (y4 : Vec Ideal S1x32 .f32) (y5 : Vec Ideal S32x256 .f32) (y6 : Vec Ideal S1x256 .f32)
    (y7 : Vec Ideal S2048x256 .f32) (j : S2048x256.Idx) :
    k0_pay1 (k0_pay3 y0 y1 y2 y3 y4 y5 y6) y7 j
      = mean (fun k => y0 (ix2 (⟨(j 0).val, idx2_lt0 j⟩ : Fin 2048) k)) (fun k j => y1 (ix2 k j)) (fun j => y2 (ix2 (0 : Fin 1) j))
          (fun k j => y3 (ix2 k j)) (fun j => y4 (ix2 (0 : Fin 1) j)) (fun k j => y5 (ix2 k j)) (fun j => y6 (ix2 (0 : Fin 1) j))
          (⟨(j 1).val, idx2_lt1 j⟩ : Fin 256)
        + oneW * y7 j := by
  obtain ⟨p, q, rfl⟩ : ∃ (p : Fin 2048) (q : Fin 256), j = ix2 p q := ⟨j 0, j 1, eq_ix2 j⟩
  rw [action_payload, mean_block]

/-- The stored log-density at row p of the block: the sum over the channels of the noise's term. -/
theorem logp_block (v35 : Vec Ideal S2048x256 .f32) (j : S2048.Idx) :
    k0_pay2 v35 j = ∑ k : Fin 256, term (v35 (ix2 (⟨(j 0).val, (j 0).isLt⟩ : Fin 2048) k)) := by
  obtain ⟨p, rfl⟩ : ∃ p : Fin 2048, j = ix1 p := ⟨j 0, eq_ix1 j⟩
  unfold k0_pay2
  refine (Ideal.multiReduction_add_single _ (0x00000000#32 : BitVec 32) reduces_S2048x256_S2048 _ _ (ix1 p)).trans ?_
  show ∑ k : Fin 256, _ = _
  refine Finset.sum_congr rfl fun k _ => ?_
  have e : reduces_S2048x256_S2048.lift (ix1 p) k = ix2 p k :=
    funext fun a => by match a with | ⟨0, _⟩ => rfl | ⟨1, _⟩ => rfl
  rw [e]
  rfl

end Cert.KernelIdeal.Body

end
-- ==== Proof.Blocks.lean ====
/-
  From what each grid point writes back to the two result arrays.

  Grid point t holds rows 2048·t … 2048·t + 2047 of the states and of the noise, the weights whole, and each bias as
  the one row a reshape made of it before the region. So what it writes back to the actions is rows 2048·t … of the
  whole-array function `actionsOf` of the arguments, and what it writes back to the log-density is entries 2048·t …
  of `logpOf` of the noise: the mean depends on the states only through the row, and the weights and biases are the
  same at every point. Row r lies in the block of point r / 2048, so the blocks cover both arrays, and each array
  ends holding its function of the arguments.
-/
import proofs.«130941_j48799418417266_2_alg».proof.Proof.Gen.KernelIdeal.Value
import proofs.«130941_j48799418417266_2_alg».proof.Proof.KernelPayload
import Idealize.ShloMosaic.Lib.StableHlo.Run
import Idealize.ShloMosaic.Lib.ValueLayout
import Idealize.ShloMosaic.Lib.Pipeline.Value

noncomputable section

open scoped BigOperators

namespace Cert.KernelIdeal.Blocks

open Cert.KernelIdeal Cert.KernelIdeal.Gen Cert.KernelIdeal.Value Cert.KernelIdeal.Body
open Idealize.ShloMosaic Idealize.ShloMosaic.TcCoe Idealize.SL.Sem Idealize.ShloMosaic.ValueIdx Cert.Policy
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The mean is a function of its seven arguments entry by entry. -/
theorem mean_congr {x x' : Fin 512 → EReal} {W1 W1' : Fin 512 → Fin 64 → EReal} {b1 b1' : Fin 64 → EReal}
    {W2 W2' : Fin 64 → Fin 32 → EReal} {b2 b2' : Fin 32 → EReal} {W3 W3' : Fin 32 → Fin 256 → EReal} {b3 b3' : Fin 256 → EReal}
    {q q' : Fin 256}
    (hx : ∀ k, x k = x' k) (hW1 : ∀ k j, W1 k j = W1' k j) (hb1 : ∀ j, b1 j = b1' j) (hW2 : ∀ k j, W2 k j = W2' k j)
    (hb2 : ∀ j, b2 j = b2' j) (hW3 : ∀ k j, W3 k j = W3' k j) (hb3 : ∀ j, b3 j = b3' j) (hq : q = q') :
    mean x W1 b1 W2 b2 W3 b3 q = mean x' W1' b1' W2' b2' W3' b3' q' := by
  obtain rfl : x = x' := funext hx
  obtain rfl : W1 = W1' := funext fun k => funext (hW1 k)
  obtain rfl : b1 = b1' := funext hb1
  obtain rfl : W2 = W2' := funext fun k => funext (hW2 k)
  obtain rfl : b2 = b2' := funext hb2
  obtain rfl : W3 = W3' := funext fun k => funext (hW3 k)
  obtain rfl : b3 = b3' := funext hb3
  rw [hq]

/-! ## Where each window's block sits -/

/-- The printed index maps over the 32 grid points: the states, the noise and both results move with the point along
    the rows; the weights and biases stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 1) = t.val :=
  (by decide +kernel : ∀ t : Fin grid0.N, _)

/-! ## The biases as the region finds them: one row each -/

theorem V_v0 (c : Dev nD) : (V m c main_v0 : S1x64.Idx → EReal)
    = shapeCast S1x64 (m ((c : Thread nD τ).loc main_arg2) : S64.Idx → EReal) shapeCasts_S64_S1x64 := by
  dsimp only [Gen.V, Gen.hostOps0]; after_results; rfl

theorem V_v1 (c : Dev nD) : (V m c main_v1 : S1x32.Idx → EReal)
    = shapeCast S1x32 (m ((c : Thread nD τ).loc main_arg4) : S32.Idx → EReal) shapeCasts_S32_S1x32 := by
  dsimp only [Gen.V, Gen.hostOps0]; after_results; rfl

theorem V_v2 (c : Dev nD) : (V m c main_v2 : S1x256.Idx → EReal)
    = shapeCast S1x256 (m ((c : Thread nD τ).loc main_arg6) : S256.Idx → EReal) shapeCasts_S256_S1x256 := by
  dsimp only [Gen.V, Gen.hostOps0]; after_results; rfl

/-! ## Each input block read at an entry -/

/-- The state block at point t is rows 2048·t … of the states. -/
theorem states_block (c : Dev nD) (t : Fin cfg0.N) (x : S2048x512.Idx) (i : S65536x512.Idx)
    (h0 : (i 0).val = t.val * 2048 + (x 0).val) (h1 : (i 1).val = (x 1).val) :
    (iblk m c 0 t : Vec Ideal S2048x512 .f32) x = (m ((c : Thread nD τ).loc main_arg0) : S65536x512.Idx → EReal) i := by
  obtain ⟨e0, e1, -⟩ := idx_facts t
  unfold iblk
  rw [View.read_apply]
  show V m c main_arg0 _ = _
  rw [V_main_arg0]
  refine congrArg (m ((c : Thread nD τ).loc main_arg0) : S65536x512.Idx → EReal) (funext fun a => Fin.ext ?_)
  match a with
  | ⟨0, _⟩ => show win0_0.index t (0 : Fin 2) * 2048 + 1 * (x 0).val = (i 0).val; omega
  | ⟨1, _⟩ => show win0_0.index t (1 : Fin 2) * 512 + 1 * (x 1).val = (i 1).val; omega

/-- The noise block at point t is rows 2048·t … of the noise. -/
theorem noise_block (c : Dev nD) (t : Fin cfg0.N) (x : S2048x256.Idx) (i : S65536x256.Idx)
    (h0 : (i 0).val = t.val * 2048 + (x 0).val) (h1 : (i 1).val = (x 1).val) :
    (iblk m c 7 t : Vec Ideal S2048x256 .f32) x = (m ((c : Thread nD τ).loc main_arg7) : S65536x256.Idx → EReal) i := by
  obtain ⟨-, -, -, -, -, -, -, -, -, -, -, -, -, -, e0, e1, -⟩ := idx_facts t
  unfold iblk
  rw [View.read_apply]
  show V m c main_arg7 _ = _
  rw [V_main_arg7]
  refine congrArg (m ((c : Thread nD τ).loc main_arg7) : S65536x256.Idx → EReal) (funext fun a => Fin.ext ?_)
  match a with
  | ⟨0, _⟩ => show win0_7.index t (0 : Fin 2) * 2048 + 1 * (x 0).val = (i 0).val; omega
  | ⟨1, _⟩ => show win0_7.index t (1 : Fin 2) * 256 + 1 * (x 1).val = (i 1).val; omega

/-- The first weight block is the whole matrix, at every point. -/
theorem w1_block (c : Dev nD) (t : Fin cfg0.N) (k : Fin 512) (j : Fin 64) :
    (iblk m c 1 t : Vec Ideal S512x64 .f32) (ix2 k j) = (m ((c : Thread nD τ).loc main_arg1) : S512x64.Idx → EReal) (ix2 k j) := by
  obtain ⟨-, -, e0, e1, -⟩ := idx_facts t
  unfold iblk
  rw [View.read_apply]
  show V m c main_arg1 _ = _
  rw [V_main_arg1]
  refine congrArg (m ((c : Thread nD τ).loc main_arg1) : S512x64.Idx → EReal) (funext fun a => Fin.ext ?_)
  match a with
  | ⟨0, _⟩ => show win0_1.index t (0 : Fin 2) * 512 + 1 * k.val = k.val; omega
  | ⟨1, _⟩ => show win0_1.index t (1 : Fin 2) * 64 + 1 * j.val = j.val; omega

/-- The second weight block is the whole matrix. -/
theorem w2_block (c : Dev nD) (t : Fin cfg0.N) (k : Fin 64) (j : Fin 32) :
    (iblk m c 3 t : Vec Ideal S64x32 .f32) (ix2 k j) = (m ((c : Thread nD τ).loc main_arg3) : S64x32.Idx → EReal) (ix2 k j) := by
  obtain ⟨-, -, -, -, -, -, e0, e1, -⟩ := idx_facts t
  unfold iblk
  rw [View.read_apply]
  show V m c main_arg3 _ = _
  rw [V_main_arg3]
  refine congrArg (m ((c : Thread nD τ).loc main_arg3) : S64x32.Idx → EReal) (funext fun a => Fin.ext ?_)
  match a with
  | ⟨0, _⟩ => show win0_3.index t (0 : Fin 2) * 64 + 1 * k.val = k.val; omega
  | ⟨1, _⟩ => show win0_3.index t (1 : Fin 2) * 32 + 1 * j.val = j.val; omega

/-- The third weight block is the whole matrix. -/
theorem w3_block (c : Dev nD) (t : Fin cfg0.N) (k : Fin 32) (j : Fin 256) :
    (iblk m c 5 t : Vec Ideal S32x256 .f32) (ix2 k j) = (m ((c : Thread nD τ).loc main_arg5) : S32x256.Idx → EReal) (ix2 k j) := by
  obtain ⟨-, -, -, -, -, -, -, -, -, -, e0, e1, -⟩ := idx_facts t
  unfold iblk
  rw [View.read_apply]
  show V m c main_arg5 _ = _
  rw [V_main_arg5]
  refine congrArg (m ((c : Thread nD τ).loc main_arg5) : S32x256.Idx → EReal) (funext fun a => Fin.ext ?_)
  match a with
  | ⟨0, _⟩ => show win0_5.index t (0 : Fin 2) * 32 + 1 * k.val = k.val; omega
  | ⟨1, _⟩ => show win0_5.index t (1 : Fin 2) * 256 + 1 * j.val = j.val; omega

/-- The first bias block's one row is the bias vector. -/
theorem b1_block (c : Dev nD) (t : Fin cfg0.N) (j : Fin 64) :
    (iblk m c 2 t : Vec Ideal S1x64 .f32) (ix2 (0 : Fin 1) j) = (m ((c : Thread nD τ).loc main_arg2) : S64.Idx → EReal) (ix1 j) := by
  obtain ⟨-, -, -, -, e0, e1, -⟩ := idx_facts t
  unfold iblk
  rw [View.read_apply]
  show V m c main_v0 _ = _
  rw [V_v0]
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 64 + 1 * j.val = j.val; omega)
  rw [e, shapeCast_a_1a_apply]

/-- The second bias block's one row is the bias vector. -/
theorem b2_block (c : Dev nD) (t : Fin cfg0.N) (j : Fin 32) :
    (iblk m c 4 t : Vec Ideal S1x32 .f32) (ix2 (0 : Fin 1) j) = (m ((c : Thread nD τ).loc main_arg4) : S32.Idx → EReal) (ix1 j) := by
  obtain ⟨-, -, -, -, -, -, -, -, e0, e1, -⟩ := idx_facts t
  unfold iblk
  rw [View.read_apply]
  show V m c main_v1 _ = _
  rw [V_v1]
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 32 + 1 * j.val = j.val; omega)
  rw [e, shapeCast_a_1a_apply]

/-- The third bias block's one row is the bias vector. -/
theorem b3_block (c : Dev nD) (t : Fin cfg0.N) (j : Fin 256) :
    (iblk m c 6 t : Vec Ideal S1x256 .f32) (ix2 (0 : Fin 1) j) = (m ((c : Thread nD τ).loc main_arg6) : S256.Idx → EReal) (ix1 j) := by
  obtain ⟨-, -, -, -, -, -, -, -, -, -, -, -, e0, e1, -⟩ := idx_facts t
  unfold iblk
  rw [View.read_apply]
  show V m c main_v2 _ = _
  rw [V_v2]
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 256 + 1 * j.val = j.val; omega)
  rw [e, shapeCast_a_1a_apply]

/-! ## What each point writes back -/

/-- Point t writes back to the actions its block of `actionsOf` of the arguments. -/
theorem flushed_actions (c : Dev nD) (t : Fin cfg0.N) :
    (dats m 0 c).flushed 8 t = ((cfg0.win 8).blk t).view.read (Elt Ideal)
      (actionsOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  rw [Value.flushed8]
  unfold out0_8
  rw [View.canon_unit_zero hz2]
  simp only [View.ld_unit_zero (S := S2048x512) hz2, View.ld_unit_zero (S := S512x64) hz2, View.ld_unit_zero (S := S1x64) hz2,
    View.ld_unit_zero (S := S64x32) hz2, View.ld_unit_zero (S := S1x32) hz2, View.ld_unit_zero (S := S32x256) hz2,
    View.ld_unit_zero (S := S1x256) hz2, View.ld_unit_zero (S := S2048x256) hz2]
  obtain ⟨-, -, -, -, -, -, -, -, -, -, -, -, -, -, -, -, e80, e81, -⟩ := idx_facts t
  funext j
  show k0_pay1 (k0_pay3 (iblk m c 0 t) (iblk m c 1 t) (iblk m c 2 t) (iblk m c 3 t) (iblk m c 4 t) (iblk m c 5 t) (iblk m c 6 t)) (iblk m c 7 t) j
    = actionsOf _ _ _ _ _ _ _ _ (((cfg0.win 8).blk t).view.emb j)
  refine (action_block (iblk m c 0 t) (iblk m c 1 t) (iblk m c 2 t) (iblk m c 3 t) (iblk m c 4 t) (iblk m c 5 t) (iblk m c 6 t) (iblk m c 7 t) j).trans ?_
  unfold actionsOf
  have hr0 : ((((cfg0.win 8).blk t).view.emb j) 0).val = t.val * 2048 + (j 0).val := by
    show win0_8.index t (0 : Fin 2) * 2048 + 1 * (j 0).val = _; omega
  have hr1 : ((((cfg0.win 8).blk t).view.emb j) 1).val = (j 1).val := by
    show win0_8.index t (1 : Fin 2) * 256 + 1 * (j 1).val = _; omega
  refine congrArg₂ (· + ·)
    (mean_congr (fun k => states_block m c t _ _ hr0 rfl) (fun k j => w1_block m c t k j) (fun j => b1_block m c t j)
      (fun k j => w2_block m c t k j) (fun j => b2_block m c t j) (fun k j => w3_block m c t k j) (fun j => b3_block m c t j)
      (Fin.ext hr1.symm))
    (congrArg (oneW * ·) (noise_block m c t j _ hr0 hr1))

/-- Point t writes back to the log-density its block of `logpOf` of the noise. -/
theorem flushed_logp (c : Dev nD) (t : Fin cfg0.N) :
    (dats m 0 c).flushed 9 t = ((cfg0.win 9).blk t).view.read (Elt Ideal) (logpOf (m ((c : Thread nD τ).loc main_arg7))) := by
  rw [Value.flushed9]
  unfold out0_9
  rw [View.canon_unit_zero hz1]
  simp only [View.ld_unit_zero (S := S2048x256) hz2]
  obtain ⟨-, -, -, -, -, -, -, -, -, -, -, -, -, -, -, -, -, -, e90⟩ := idx_facts t
  funext j
  show k0_pay2 (iblk m c 7 t) j = logpOf _ (((cfg0.win 9).blk t).view.emb j)
  refine (logp_block (iblk m c 7 t) j).trans ?_
  unfold logpOf
  have hr0 : ((((cfg0.win 9).blk t).view.emb j) 0).val = t.val * 2048 + (j 0).val := by
    show win0_9.index t (0 : Fin 1) * 2048 + 1 * (j 0).val = _; omega
  exact Finset.sum_congr rfl fun k _ => congrArg term (noise_block m c t _ _ hr0 rfl)

/-! ## The blocks cover the arrays -/

theorem mem_blk8 (t : Fin cfg0.N) (i : S65536x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v3_0).slice (win0_8.rect t)).set ↔ _
  rw [View.set_slice_whole, Rect.mem_set_unit]
  exact Iff.rfl

theorem mem_blk9 (t : Fin cfg0.N) (i : S65536.Idx) :
    i ∈ ((cfg0.win 9).blk t).view.set ↔ ∀ a : Fin 1, win0_9.index t a * S2048.size a ≤ (i a).val ∧ (i a).val < win0_9.index t a * S2048.size a + S2048.size a := by
  show i ∈ ((View.whole main_v3_1).slice (win0_9.rect t)).set ↔ _
  rw [View.set_slice_whole, Rect.mem_set_unit]
  exact Iff.rfl

/-- Row r of the actions lies in the block of point r / 2048. -/
theorem cover8 (i : S65536x256.Idx) : ∃ t : Fin cfg0.N, (cfg0.win 8).flush t = true ∧ i ∈ ((cfg0.win 8).blk t).view.set := by
  have hi0 : (i 0).val < 65536 := (i 0).isLt
  have hi1 : (i 1).val < 256 := (i 1).isLt
  obtain ⟨t, ht⟩ : ∃ t : Fin cfg0.N, t.val = (i 0).val / 2048 :=
    ⟨⟨(i 0).val / 2048, by show (i 0).val / 2048 < grid0.N; rw [N_0]; omega⟩, rfl⟩
  obtain ⟨-, -, -, -, -, -, -, -, -, -, -, -, -, -, -, -, e80, e81, -⟩ := idx_facts t
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 256 ≤ (i 1).val ∧ (i 1).val < win0_8.index t (1 : Fin 2) * 256 + 256; omega

/-- Entry r of the log-density lies in the block of point r / 2048. -/
theorem cover9 (i : S65536.Idx) : ∃ t : Fin cfg0.N, (cfg0.win 9).flush t = true ∧ i ∈ ((cfg0.win 9).blk t).view.set := by
  have hi0 : (i 0).val < 65536 := (i 0).isLt
  obtain ⟨t, ht⟩ : ∃ t : Fin cfg0.N, t.val = (i 0).val / 2048 :=
    ⟨⟨(i 0).val / 2048, by show (i 0).val / 2048 < grid0.N; rw [N_0]; omega⟩, rfl⟩
  obtain ⟨-, -, -, -, -, -, -, -, -, -, -, -, -, -, -, -, -, -, e90⟩ := idx_facts t
  refine ⟨t, flush0_9 t, ?_⟩
  rw [mem_blk9]
  intro a
  match a with
  | ⟨0, _⟩ => show win0_9.index t (0 : Fin 1) * 2048 ≤ (i 0).val ∧ (i 0).val < win0_9.index t (0 : Fin 1) * 2048 + 2048; omega

/-! ## The arrays after the run -/

theorem final_actions (c : Dev nD) : (dats m 0 c).arrAt 8 cfg0.N
    = actionsOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (dats m 0 c).arrAt_eq_of_cover 8 _ (fun t _ => flushed_actions m c t) cover8

theorem final_logp (c : Dev nD) : (dats m 0 c).arrAt 9 cfg0.N = logpOf (m ((c : Thread nD τ).loc main_arg7)) :=
  (dats m 0 c).arrAt_eq_of_cover 9 _ (fun t _ => flushed_logp m c t) cover9

/-- THE KERNEL'S RUN, READ: the actions and the log-density at their functions of the arguments, the arguments unchanged. -/
theorem run : θ_run defs (onTc (τ := τ) (main (F := Ideal))) ⟨m, fun _ => 0, ρ⟩ fun r => ∀ c : Dev nD,
      r.2.mem ((c : Thread nD τ).loc main_v3_0)
        = actionsOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v3_1) = logpOf (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_actions m c), (h c).2.1.trans (final_logp m c), (h c).2.2⟩)
    (Value.run_blocks m ρ)

end Cert.KernelIdeal.Blocks

end
-- ==== Proof.RefValue.lean ====
/-
  The reference program, stage by stage, is the same function.

  Its first product plus the bias laid along the rows is, at (r, j), the first dense layer of row r of the states; the
  select between that and slope times it is the rectifier; the same twice more gives the mean at (r, q); adding one
  times the noise gives the action. For the log-density the reference first recovers the noise as (action − mean)
  over one; with a real mean that is the noise itself (the one place where real inputs are used), and the sum of the
  terms from zero is the sum of the terms.
-/
import proofs.«130941_j48799418417266_2_alg».proof.Proof.Gen.ReferenceIdeal.Read
import proofs.«130941_j48799418417266_2_alg».proof.Proof.Policy
import proofs.«130941_j48799418417266_2_alg».proof.Proof.LibPlainDot

noncomputable section

open scoped BigOperators

namespace Cert.ReferenceIdeal.RefValue

open Cert.ReferenceIdeal Cert.ReferenceIdeal.Gen Cert.ReferenceIdeal.Read Idealize.ShloMosaic Idealize.ShloMosaic.ValueIdx Cert.Policy

variable (x0 : (⟨S65536x512, .f32⟩ : BufTy).Contents (Elt Ideal)) (x1 : (⟨S512x64, .f32⟩ : BufTy).Contents (Elt Ideal))
  (x2 : (⟨S64, .f32⟩ : BufTy).Contents (Elt Ideal)) (x3 : (⟨S64x32, .f32⟩ : BufTy).Contents (Elt Ideal))
  (x4 : (⟨S32, .f32⟩ : BufTy).Contents (Elt Ideal)) (x5 : (⟨S32x256, .f32⟩ : BufTy).Contents (Elt Ideal))
  (x6 : (⟨S256, .f32⟩ : BufTy).Contents (Elt Ideal)) (x7 : (⟨S65536x256, .f32⟩ : BufTy).Contents (Elt Ideal))

/-- First layer before the rectifier, at (r, j). -/
theorem ref_pre1 (r : Fin 65536) (j : Fin 64) :
    val_main_v3 (F := Ideal) x0 x1 x2 (ix2 r j)
      = pre1 (fun k => x0 (ix2 r k)) (fun k j => x1 (ix2 k j)) (fun j => x2 (ix1 j)) j := by
  unfold val_main_v3 val_main_v0 val_main_v2 val_main_v1
  exact (Cert.LibPlainDot.dot_bias_at 65536 512 64 _ rfl x0 x1 x2 _ _ r j).trans rfl

/-- The select between a stage and slope times it is the rectifier of the stage. -/
theorem ref_act1 (i : S65536x64.Idx) :
    val_main_v8 (F := Ideal) x0 x1 x2 i = lrelu (val_main_v3 (F := Ideal) x0 x1 x2 i) := rfl

/-- Second layer before the rectifier, at (r, j). -/
theorem ref_pre2 (r : Fin 65536) (j : Fin 32) :
    val_main_v12 (F := Ideal) x0 x1 x2 x3 x4 (ix2 r j)
      = pre2 (fun k => x0 (ix2 r k)) (fun k j => x1 (ix2 k j)) (fun j => x2 (ix1 j)) (fun k j => x3 (ix2 k j)) (fun j => x4 (ix1 j)) j := by
  unfold val_main_v12 val_main_v9 val_main_v11 val_main_v10
  refine (Cert.LibPlainDot.dot_bias_at 65536 64 32 _ rfl (val_main_v8 (F := Ideal) x0 x1 x2) x3 x4 _ _ r j).trans ?_
  unfold Cert.LibPlainDot.linRow pre2
  refine congrArg (· + x4 (ix1 j)) (Finset.sum_congr rfl fun k _ => congrArg (· * x3 (ix2 k j)) ?_)
  exact (ref_act1 x0 x1 x2 (ix2 r k)).trans (congrArg lrelu (ref_pre1 x0 x1 x2 r k))

theorem ref_act2 (i : S65536x32.Idx) :
    val_main_v17 (F := Ideal) x0 x1 x2 x3 x4 i = lrelu (val_main_v12 (F := Ideal) x0 x1 x2 x3 x4 i) := rfl

/-- The mean at (r, q). -/
theorem ref_mean (r : Fin 65536) (q : Fin 256) :
    val_main_v21 (F := Ideal) x0 x1 x2 x3 x4 x5 x6 (ix2 r q)
      = mean (fun k => x0 (ix2 r k)) (fun k j => x1 (ix2 k j)) (fun j => x2 (ix1 j)) (fun k j => x3 (ix2 k j)) (fun j => x4 (ix1 j))
          (fun k j => x5 (ix2 k j)) (fun j => x6 (ix1 j)) q := by
  unfold val_main_v21 val_main_v18 val_main_v20 val_main_v19
  refine (Cert.LibPlainDot.dot_bias_at 65536 32 256 _ rfl (val_main_v17 (F := Ideal) x0 x1 x2 x3 x4) x5 x6 _ _ r q).trans ?_
  unfold Cert.LibPlainDot.linRow mean
  refine congrArg (· + x6 (ix1 q)) (Finset.sum_congr rfl fun k _ => congrArg (· * x5 (ix2 k q)) ?_)
  exact (ref_act2 x0 x1 x2 x3 x4 (ix2 r k)).trans (congrArg lrelu (ref_pre2 x0 x1 x2 x3 x4 r k))

/-- The action at an entry: the mean there plus one times the noise there. -/
theorem ref_action (i : S65536x256.Idx) :
    val_main_v24 (F := Ideal) x0 x1 x2 x3 x4 x5 x6 x7 i = val_main_v21 (F := Ideal) x0 x1 x2 x3 x4 x5 x6 i + oneW * x7 i := rfl

/-- THE FIRST RESULT is the actions. -/
theorem ref_actions : val_main_v24 (F := Ideal) x0 x1 x2 x3 x4 x5 x6 x7 = actionsOf x0 x1 x2 x3 x4 x5 x6 x7 := by
  funext i
  obtain ⟨r, q, rfl⟩ : ∃ (r : Fin 65536) (q : Fin 256), i = ix2 r q := ⟨i 0, i 1, eq_ix2 i⟩
  rw [ref_action, ref_mean]
  rfl

/-- One channel's term as the reference spells it: the term of (action − mean) over one. -/
theorem ref_term (i : S65536x256.Idx) :
    val_main_v32 (F := Ideal) x0 x1 x2 x3 x4 x5 x6 x7 i
      = term (Ideal.div (val_main_v21 (F := Ideal) x0 x1 x2 x3 x4 x5 x6 i + oneW * x7 i - val_main_v21 (F := Ideal) x0 x1 x2 x3 x4 x5 x6 i) oneW) := rfl

/-- THE SECOND RESULT is the summed log-density of the noise, when the states, weights and biases are real. -/
theorem ref_logp (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    val_main_v33 (F := Ideal) x0 x1 x2 x3 x4 x5 x6 x7 = logpOf x7 := by
  funext i
  obtain ⟨r, rfl⟩ : ∃ r : Fin 65536, i = ix1 r := ⟨i 0, eq_ix1 i⟩
  rw [val_main_v33_apply]
  show zeroW + _ = _
  rw [zeroW_eq, zero_add]
  unfold logpOf
  refine Finset.sum_congr rfl fun k _ => ?_
  have e : idx_main_v33 (ix1 r) k = ix2 r k := funext fun a => by match a with | ⟨0, _⟩ => rfl | ⟨1, _⟩ => rfl
  rw [e, ref_term]
  have hreal : IsReal (val_main_v21 (F := Ideal) x0 x1 x2 x3 x4 x5 x6 (ix2 r k)) := by
    rw [ref_mean]
    exact mean_isReal (fun _ => h0 _) (fun _ _ => h1 _) (fun _ => h2 _) (fun _ _ => h3 _) (fun _ => h4 _) (fun _ _ => h5 _) (fun _ => h6 _) k
  rw [recovered_noise hreal]

end Cert.ReferenceIdeal.RefValue

end
-- ==== Proof.Finite.lean ====
/-
  The precondition, read back: every entry of every argument is a real number.

  The precondition is the conjunction, over the eight arguments, of "every entry's absolute value is below +∞". A
  conjunction of one-bit words that is 1 has every conjunct 1; an all-reduction by "and" that is 1 had a 1 at every
  entry; and on the extended reals max(x, −x) < ⊤ excludes exactly ⊤ and ⊥, which leaves the real numbers.
-/
import proofs.«130941_j48799418417266_2_alg».proof.Pre_finite_inputs
import proofs.«130941_j48799418417266_2_alg».proof.Proof.Policy
import Idealize.ShloMosaic.Lib.ReduceAll
import Idealize.ShloMosaic.Lib.ValueIdx

noncomputable section

namespace Cert.Pre_finite_inputs.Decode

open Cert.Pre_finite_inputs Idealize.ShloMosaic Cert.Policy

/-- The scalar shape has one index. -/
instance : Subsingleton S_.Idx := ⟨fun a b => funext fun d => d.elim0⟩

/-- The word 0x7F800000 is +∞. -/
theorem inf_word : Ideal.ofBits .f32 0x7F800000#32 = ⊤ := by simp [Ideal.ofBits, Ideal.ieee]

/-- An extended real whose absolute value is below +∞ is a real number. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨r, rfl⟩

/-- One argument's conjunct: if the all-reduction of "|entry| < +∞" is 1, every entry is real. -/
theorem all_real {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant S_ .f32 0x7F800000#32)))
      (constantI S_ 1 1#1) hr hu ValueIdx.ix0 = 1#1) (i : S.Idx) : IsReal (a i) :=
  isReal_of_abs_lt (a i) (Host.reduce_andi_all _ _ hr hu _ e i)

/-- THE PRECONDITION READ BACK: all eight arguments hold real numbers only. -/
theorem reals_of_pre [Facts] (a0 : FVec Ideal S65536x512 .f32) (a1 : FVec Ideal S512x64 .f32) (a2 : FVec Ideal S64 .f32)
    (a3 : FVec Ideal S64x32 .f32) (a4 : FVec Ideal S32 .f32) (a5 : FVec Ideal S32x256 .f32) (a6 : FVec Ideal S256 .f32)
    (a7 : FVec Ideal S65536x256 .f32) (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h' := congrFun h ValueIdx.ix0
  dsimp only [fn, fn_part1, fn_part2] at h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7⟩

end Cert.Pre_finite_inputs.Decode

end
-- ==== Proof.lean ====
/-
  A small actor network, computed on blocks of rows by the kernel and on all rows at once by the reference.

  Both programs pass each row of the states through three dense layers with a leaky rectifier after the first two,
  add one times the noise to the resulting mean to get the action, and sum over the channels the term
  (−½·n)·n − ½log 2π of the noise n to get the log-density. On extended reals a change of float format is the
  identity and both kinds of matrix product are the plain sum of products, so the two means are the same function of
  a row; the kernel's blocks of 2048 rows tile the 65536 rows, so its two result arrays are that function of the
  arguments row by row (Proof/Blocks.lean over Proof/KernelPayload.lean). The reference spells the noise inside the
  log-density as (action − mean) / one. That is the noise when the mean is a real number, and the mean of real inputs
  is real: the precondition says every input is real (Proof/Finite.lean), and this is the only place it is used
  (Proof/RefValue.lean, over the laws of Proof/Policy.lean).

  The three frames are the generated frame runs (the reference's is its generated run with the results dropped);
  nothing was rewritten when the kernel was idealized, so that claim is trivial.
-/
import proofs.«130941_j48799418417266_2_alg».proof.Defs
import proofs.«130941_j48799418417266_2_alg».proof.Proof.Gen.Kernel
import proofs.«130941_j48799418417266_2_alg».proof.Proof.Gen.Kernel.Skeleton
import proofs.«130941_j48799418417266_2_alg».proof.Proof.Gen.Kernel.Launch
import proofs.«130941_j48799418417266_2_alg».proof.Proof.Gen.Kernel.Points
import proofs.«130941_j48799418417266_2_alg».proof.Proof.Gen.Kernel.Frame
import proofs.«130941_j48799418417266_2_alg».proof.Proof.Gen.KernelIdeal
import proofs.«130941_j48799418417266_2_alg».proof.Proof.Gen.KernelIdeal.Skeleton
import proofs.«130941_j48799418417266_2_alg».proof.Proof.Gen.KernelIdeal.Launch
import proofs.«130941_j48799418417266_2_alg».proof.Proof.Gen.KernelIdeal.Points
import proofs.«130941_j48799418417266_2_alg».proof.Proof.Gen.KernelIdeal.Frame
import proofs.«130941_j48799418417266_2_alg».proof.Proof.Gen.ReferenceIdeal
import proofs.«130941_j48799418417266_2_alg».proof.Proof.Gen.Pre_finite_inputs
import proofs.«130941_j48799418417266_2_alg».proof.Proof.Gen.KernelIdeal.Value
import proofs.«130941_j48799418417266_2_alg».proof.Proof.Gen.ReferenceIdeal.Run
import proofs.«130941_j48799418417266_2_alg».proof.Proof.Gen.ReferenceIdeal.Read
import proofs.«130941_j48799418417266_2_alg».proof.Proof.Blocks
import proofs.«130941_j48799418417266_2_alg».proof.Proof.RefValue
import proofs.«130941_j48799418417266_2_alg».proof.Proof.Finite
import Idealize.ShloMosaic.Adequacy
import Idealize.ShloMosaic.Init

noncomputable section

namespace Cert.Proof

open Idealize.ShloMosaic Idealize.SL.Sem Cert.Policy

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From memories that agree on the eight real-valued arguments both programs end with the actions at `actionsOf` of
    the arguments and the log-density at `logpOf` of the noise. -/
theorem algebraic : Cert.algebraic_KernelIdeal_ReferenceIdeal := by
  intro m ρ m' ρ' hpre hagree
  refine ⟨fun c => actionsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => logpOf (m ((c.tc : Thread Cert.KernelIdeal.nD Cert.KernelIdeal.τ).loc Cert.KernelIdeal.main_arg7)),
    Cert.KernelIdeal.Blocks.run m ρ, ?_⟩
  refine (θ_run Cert.ReferenceIdeal.defs _ _).mono (fun _ h c => ?_) (Cert.ReferenceIdeal.Value.run (F := Ideal) m' ρ')
  obtain ⟨r0, r1, r2, r3, r4, r5, r6, -⟩ := Cert.Pre_finite_inputs.Decode.reals_of_pre _ _ _ _ _ _ _ _ (hpre c)
  obtain ⟨g0, g1, g2, g3, g4, g5, g6, g7⟩ := hagree c
  refine ⟨(h c).1.trans ?_, (h c).2.1.trans ?_, (h c).2.2⟩
  · rw [Cert.ReferenceIdeal.Read.val_main_v24_eq, g0, g1, g2, g3, g4, g5, g6, g7]
    exact Cert.ReferenceIdeal.RefValue.ref_actions _ _ _ _ _ _ _ _
  · rw [Cert.ReferenceIdeal.Read.val_main_v33_eq, g0, g1, g2, g3, g4, g5, g6, g7]
    exact Cert.ReferenceIdeal.RefValue.ref_logp _ _ _ _ _ _ _ _ r0 r1 r2 r3 r4 r5 r6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
